-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S20000x256 .f32) (main_arg1 : IVec S2x320000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S20000 : Shape := ⟨1, ![20000]⟩
abbrev S340000 : Shape := ⟨1, ![340000]⟩
abbrev S_ : Shape := ⟨0, ![]⟩
abbrev S340000x1 : Shape := ⟨2, ![340000, 1]⟩
abbrev S2000x256 : Shape := ⟨2, ![2000, 256]⟩
abbrev S340000x256 : Shape := ⟨2, ![340000, 256]⟩
abbrev S1x256 : Shape := ⟨2, ![1, 256]⟩

abbrev nBuf : Space → Nat
  | .hbm => 136
  | .vmem => 20
  | .smem => 0
  | _ => 0

abbrev hbmTy0_0 (i : Nat) : BufTy := match i % 128 with
  | 0 => ⟨S20000x256, .f32⟩
  | 1 => ⟨S2x320000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S1x320000, .i32⟩
  | 11 => ⟨S320000, .i32⟩
  | 12 => ⟨S1x320000, .i32⟩
  | 13 => ⟨S320000, .i32⟩
  | 14 => ⟨S20000, .i32⟩
  | 15 => ⟨S340000, .i32⟩
  | 16 => ⟨S340000, .i32⟩
  | 17 => ⟨S_, .f32⟩
  | 18 => ⟨S340000, .f32⟩
  | 19 => ⟨S_, .f32⟩
  | 20 => ⟨S20000, .f32⟩
  | 21 => ⟨S340000x1, .i32⟩
  | 22 => ⟨S20000, .f32⟩
  | 23 => ⟨S_, .f32⟩
  | 24 => ⟨S20000, .f32⟩
  | 25 => ⟨S20000, .i1⟩
  | 26 => ⟨S20000, .f32⟩
  | 27 => ⟨S_, .f32⟩
  | 28 => ⟨S_, .f32⟩
  | 29 => ⟨S20000, .f32⟩
  | 30 => ⟨S20000, .f32⟩
  | 31 => ⟨S_, .i32⟩
  | 32 => ⟨S340000, .i32⟩
  | 33 => ⟨S340000, .i1⟩
  | 34 => ⟨S_, .i32⟩
  | 35 => ⟨S340000, .i32⟩
  | 36 => ⟨S340000, .i32⟩
  | 37 => ⟨S340000, .i32⟩
  | 38 => ⟨S340000x1, .i32⟩
  | 39 => ⟨S340000, .f32⟩
  | 40 => ⟨S_, .i32⟩
  | 41 => ⟨S340000, .i32⟩
  | 42 => ⟨S340000, .i1⟩
  | 43 => ⟨S_, .i32⟩
  | 44 => ⟨S340000, .i32⟩
  | 45 => ⟨S340000, .i32⟩
  | 46 => ⟨S340000, .i32⟩
  | 47 => ⟨S340000x1, .i32⟩
  | 48 => ⟨S340000, .f32⟩
  | 49 => ⟨S340000, .f32⟩
  | 50 => ⟨S20000x256, .f32⟩
  | 51 => ⟨S340000x1, .f32⟩
  | 52 => ⟨S_, .i32⟩
  | 53 => ⟨S340000, .i32⟩
  | 54 => ⟨S340000, .i1⟩
  | 55 => ⟨S_, .i32⟩
  | 56 => ⟨S340000, .i32⟩
  | 57 => ⟨S340000, .i32⟩
  | 58 => ⟨S340000, .i32⟩
  | 59 => ⟨S340000x1, .i32⟩
  | 60 => ⟨S340000x256, .f32⟩
  | 61 => ⟨S340000x256, .f32⟩
  | 62 => ⟨S340000x256, .f32⟩
  | 63 => ⟨S_, .f32⟩
  | 64 => ⟨S20000x256, .f32⟩
  | 65 => ⟨S340000x1, .i32⟩
  | 66 => ⟨S20000x256, .f32⟩
  | 67 => ⟨S1x256, .f32⟩
  | 68 => ⟨S20000x256, .f32⟩
  | 69 => ⟨S20000x256, .f32⟩
  | 70 => ⟨S_, .f32⟩
  | 71 => ⟨S20000x256, .f32⟩
  | 72 => ⟨S20000x256, .f32⟩
  | 73 => ⟨S20000x256, .f32⟩
  | 74 => ⟨S340000x1, .f32⟩
  | 75 => ⟨S_, .i32⟩
  | 76 => ⟨S340000, .i32⟩
  | 77 => ⟨S340000, .i1⟩
  | 78 => ⟨S_, .i32⟩
  | 79 => ⟨S340000, .i32⟩
  | 80 => ⟨S340000, .i32⟩
  | 81 => ⟨S340000, .i32⟩
  | 82 => ⟨S340000x1, .i32⟩
  | 83 => ⟨S340000x256, .f32⟩
  | 84 => ⟨S340000x256, .f32⟩
  | 85 => ⟨S340000x256, .f32⟩
  | 86 => ⟨S_, .f32⟩
  | 87 => ⟨S20000x256, .f32⟩
  | 88 => ⟨S340000x1, .i32⟩
  | 89 => ⟨S20000x256, .f32⟩
  | 90 => ⟨S1x256, .f32⟩
  | 91 => ⟨S20000x256, .f32⟩
  | 92 => ⟨S20000x256, .f32⟩
  | 93 => ⟨S_, .f32⟩
  | 94 => ⟨S20000x256, .f32⟩
  | 95 => ⟨S20000x256, .f32⟩
  | 96 => ⟨S20000x256, .f32⟩
  | 97 => ⟨S340000x1, .f32⟩
  | 98 => ⟨S_, .i32⟩
  | 99 => ⟨S340000, .i32⟩
  | 100 => ⟨S340000, .i1⟩
  | 101 => ⟨S_, .i32⟩
  | 102 => ⟨S340000, .i32⟩
  | 103 => ⟨S340000, .i32⟩
  | 104 => ⟨S340000, .i32⟩
  | 105 => ⟨S340000x1, .i32⟩
  | 106 => ⟨S340000x256, .f32⟩
  | 107 => ⟨S340000x256, .f32⟩
  | 108 => ⟨S340000x256, .f32⟩
  | 109 => ⟨S_, .f32⟩
  | 110 => ⟨S20000x256, .f32⟩
  | 111 => ⟨S340000x1, .i32⟩
  | 112 => ⟨S20000x256, .f32⟩
  | 113 => ⟨S1x256, .f32⟩
  | 114 => ⟨S20000x256, .f32⟩
  | 115 => ⟨S20000x256, .f32⟩
  | 116 => ⟨S20000x256, .f32⟩
  | 117 => ⟨S340000x1, .f32⟩
  | 118 => ⟨S_, .i32⟩
  | 119 => ⟨S340000, .i32⟩
  | 120 => ⟨S340000, .i1⟩
  | 121 => ⟨S_, .i32⟩
  | 122 => ⟨S340000, .i32⟩
  | 123 => ⟨S340000, .i32⟩
  | 124 => ⟨S340000, .i32⟩
  | 125 => ⟨S340000x1, .i32⟩
  | 126 => ⟨S340000x256, .f32⟩
  | 127 => ⟨S340000x256, .f32⟩
  | _ => ⟨S20000x256, .f32⟩

abbrev hbmTy0_1 (i : Nat) : BufTy := match i % 128 with
  | 0 => ⟨S340000x256, .f32⟩
  | 1 => ⟨S_, .f32⟩
  | 2 => ⟨S20000x256, .f32⟩
  | 3 => ⟨S340000x1, .i32⟩
  | 4 => ⟨S20000x256, .f32⟩
  | 5 => ⟨S1x256, .f32⟩
  | 6 => ⟨S20000x256, .f32⟩
  | 7 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S2000x256, .f32⟩
  | .local _ .vmem, ⟨19, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  shapeCasts_S2000x256_S2000x256 : S2000x256.ShapeCasts S2000x256
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x256_S256x256_S2000x256_1_0_0_1_n_n_wf : DotDims.WF S2000x256 S256x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S20000 : Shape := ⟨1, ![20000]⟩
abbrev S340000 : Shape := ⟨1, ![340000]⟩
abbrev S_ : Shape := ⟨0, ![]⟩
abbrev S340000x1 : Shape := ⟨2, ![340000, 1]⟩
abbrev S340000x256 : Shape := ⟨2, ![340000, 256]⟩
abbrev S1x256 : Shape := ⟨2, ![1, 256]⟩

abbrev nBuf : Space → Nat
  | .hbm => 136
  | .vmem => 0
  | .smem => 0
  | _ => 0

abbrev hbmTy0_0 (i : Nat) : BufTy := match i % 128 with
  | 0 => ⟨S20000x256, .f32⟩
  | 1 => ⟨S2x320000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S1x320000, .i32⟩
  | 11 => ⟨S320000, .i32⟩
  | 12 => ⟨S1x320000, .i32⟩
  | 13 => ⟨S320000, .i32⟩
  | 14 => ⟨S20000, .i32⟩
  | 15 => ⟨S340000, .i32⟩
  | 16 => ⟨S340000, .i32⟩
  | 17 => ⟨S_, .f32⟩
  | 18 => ⟨S340000, .f32⟩
  | 19 => ⟨S_, .f32⟩
  | 20 => ⟨S20000, .f32⟩
  | 21 => ⟨S340000x1, .i32⟩
  | 22 => ⟨S20000, .f32⟩
  | 23 => ⟨S_, .f32⟩
  | 24 => ⟨S20000, .f32⟩
  | 25 => ⟨S20000, .i1⟩
  | 26 => ⟨S20000, .f32⟩
  | 27 => ⟨S_, .f32⟩
  | 28 => ⟨S_, .f32⟩
  | 29 => ⟨S20000, .f32⟩
  | 30 => ⟨S20000, .f32⟩
  | 31 => ⟨S_, .i32⟩
  | 32 => ⟨S340000, .i32⟩
  | 33 => ⟨S340000, .i1⟩
  | 34 => ⟨S_, .i32⟩
  | 35 => ⟨S340000, .i32⟩
  | 36 => ⟨S340000, .i32⟩
  | 37 => ⟨S340000, .i32⟩
  | 38 => ⟨S340000x1, .i32⟩
  | 39 => ⟨S340000, .f32⟩
  | 40 => ⟨S_, .i32⟩
  | 41 => ⟨S340000, .i32⟩
  | 42 => ⟨S340000, .i1⟩
  | 43 => ⟨S_, .i32⟩
  | 44 => ⟨S340000, .i32⟩
  | 45 => ⟨S340000, .i32⟩
  | 46 => ⟨S340000, .i32⟩
  | 47 => ⟨S340000x1, .i32⟩
  | 48 => ⟨S340000, .f32⟩
  | 49 => ⟨S340000, .f32⟩
  | 50 => ⟨S20000x256, .f32⟩
  | 51 => ⟨S340000x1, .f32⟩
  | 52 => ⟨S_, .i32⟩
  | 53 => ⟨S340000, .i32⟩
  | 54 => ⟨S340000, .i1⟩
  | 55 => ⟨S_, .i32⟩
  | 56 => ⟨S340000, .i32⟩
  | 57 => ⟨S340000, .i32⟩
  | 58 => ⟨S340000, .i32⟩
  | 59 => ⟨S340000x1, .i32⟩
  | 60 => ⟨S340000x256, .f32⟩
  | 61 => ⟨S340000x256, .f32⟩
  | 62 => ⟨S340000x256, .f32⟩
  | 63 => ⟨S_, .f32⟩
  | 64 => ⟨S20000x256, .f32⟩
  | 65 => ⟨S340000x1, .i32⟩
  | 66 => ⟨S20000x256, .f32⟩
  | 67 => ⟨S1x256, .f32⟩
  | 68 => ⟨S20000x256, .f32⟩
  | 69 => ⟨S20000x256, .f32⟩
  | 70 => ⟨S_, .f32⟩
  | 71 => ⟨S20000x256, .f32⟩
  | 72 => ⟨S20000x256, .f32⟩
  | 73 => ⟨S20000x256, .f32⟩
  | 74 => ⟨S340000x1, .f32⟩
  | 75 => ⟨S_, .i32⟩
  | 76 => ⟨S340000, .i32⟩
  | 77 => ⟨S340000, .i1⟩
  | 78 => ⟨S_, .i32⟩
  | 79 => ⟨S340000, .i32⟩
  | 80 => ⟨S340000, .i32⟩
  | 81 => ⟨S340000, .i32⟩
  | 82 => ⟨S340000x1, .i32⟩
  | 83 => ⟨S340000x256, .f32⟩
  | 84 => ⟨S340000x256, .f32⟩
  | 85 => ⟨S340000x256, .f32⟩
  | 86 => ⟨S_, .f32⟩
  | 87 => ⟨S20000x256, .f32⟩
  | 88 => ⟨S340000x1, .i32⟩
  | 89 => ⟨S20000x256, .f32⟩
  | 90 => ⟨S1x256, .f32⟩
  | 91 => ⟨S20000x256, .f32⟩
  | 92 => ⟨S20000x256, .f32⟩
  | 93 => ⟨S_, .f32⟩
  | 94 => ⟨S20000x256, .f32⟩
  | 95 => ⟨S20000x256, .f32⟩
  | 96 => ⟨S20000x256, .f32⟩
  | 97 => ⟨S340000x1, .f32⟩
  | 98 => ⟨S_, .i32⟩
  | 99 => ⟨S340000, .i32⟩
  | 100 => ⟨S340000, .i1⟩
  | 101 => ⟨S_, .i32⟩
  | 102 => ⟨S340000, .i32⟩
  | 103 => ⟨S340000, .i32⟩
  | 104 => ⟨S340000, .i32⟩
  | 105 => ⟨S340000x1, .i32⟩
  | 106 => ⟨S340000x256, .f32⟩
  | 107 => ⟨S340000x256, .f32⟩
  | 108 => ⟨S340000x256, .f32⟩
  | 109 => ⟨S_, .f32⟩
  | 110 => ⟨S20000x256, .f32⟩
  | 111 => ⟨S340000x1, .i32⟩
  | 112 => ⟨S20000x256, .f32⟩
  | 113 => ⟨S1x256, .f32⟩
  | 114 => ⟨S20000x256, .f32⟩
  | 115 => ⟨S20000x256, .f32⟩
  | 116 => ⟨S20000x256, .f32⟩
  | 117 => ⟨S340000x1, .f32⟩
  | 118 => ⟨S_, .i32⟩
  | 119 => ⟨S340000, .i32⟩
  | 120 => ⟨S340000, .i1⟩
  | 121 => ⟨S_, .i32⟩
  | 122 => ⟨S340000, .i32⟩
  | 123 => ⟨S340000, .i32⟩
  | 124 => ⟨S340000, .i32⟩
  | 125 => ⟨S340000x1, .i32⟩
  | 126 => ⟨S340000x256, .f32⟩
  | 127 => ⟨S340000x256, .f32⟩
  | _ => ⟨S20000x256, .f32⟩

abbrev hbmTy0_1 (i : Nat) : BufTy := match i % 128 with
  | 0 => ⟨S340000x256, .f32⟩
  | 1 => ⟨S_, .f32⟩
  | 2 => ⟨S20000x256, .f32⟩
  | 3 => ⟨S340000x1, .i32⟩
  | 4 => ⟨S20000x256, .f32⟩
  | 5 => ⟨S1x256, .f32⟩
  | 6 => ⟨S20000x256, .f32⟩
  | 7 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S20000x256_S256x256_S20000x256_1_0_0_1_n_n_wf : DotDims.WF S20000x256 S256x256 S20000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf

class Facts : Prop extends Facts₀ where

variable [Facts]
-- ==== Proof.KRun.lean ====
/-
  The idealized kernel's run with its two results named.

  The program is thirteen segments: nine stretches of host operations and four launches of the tiled product. The
  contents of every buffer at each segment boundary are a fold from the launch memory (a stretch applies its
  operations in order; a launch replaces its three arrays by what its write-backs leave). Every weakly fair execution
  ends with each unscoped buffer at the last boundary's contents; read at the two result buffers and at the ten
  arguments this is the statement below.
-/
import proofs.«148648_j43482248905435_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the two result arrays at the
    last boundary's contents and the argument arrays as launched. -/
theorem run_fold : θ_run defs (onTc (τ := τ) (main (F := F))) ⟨m, fun _ => 0, ρ⟩ (fun r => ∀ c : Dev nD,
      r.2.mem ((c.tc : Thread nD τ).loc main_v82) = W13 m ρ c (Proc.devRef .tc main_v82)
      ∧ r.2.mem ((c.tc : Thread nD τ).loc main_v99) = W13 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v82 (by decide)),
       h c _ (mem_uc main_v99 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Bridge

end
-- ==== Proof.RArgs.lean ====
/-
  No operation of the reference's line writes an argument: read at an argument's buffer, the fold of the line over any
  contents is what was there.
-/
import proofs.«148648_j43482248905435_1_alg».proof.Proof.RefRun

noncomputable section

namespace Cert.ReferenceIdeal.Bridge

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F] (V : Valuation τ sig (Elt F))

set_option maxRecDepth 16384 in
set_option maxHeartbeats 50400000 in
theorem ops_arg0 : after (ops (F := F)) V (Proc.devRef .tc main_arg0) = V (Proc.devRef .tc main_arg0) := by
  simp only [ops]
  after_results_simp
set_option maxRecDepth 16384 in
set_option maxHeartbeats 50400000 in
theorem ops_arg1 : after (ops (F := F)) V (Proc.devRef .tc main_arg1) = V (Proc.devRef .tc main_arg1) := by
  simp only [ops]
  after_results_simp
set_option maxRecDepth 16384 in
set_option maxHeartbeats 50400000 in
theorem ops_arg2 : after (ops (F := F)) V (Proc.devRef .tc main_arg2) = V (Proc.devRef .tc main_arg2) := by
  simp only [ops]
  after_results_simp
set_option maxRecDepth 16384 in
set_option maxHeartbeats 50400000 in
theorem ops_arg3 : after (ops (F := F)) V (Proc.devRef .tc main_arg3) = V (Proc.devRef .tc main_arg3) := by
  simp only [ops]
  after_results_simp
set_option maxRecDepth 16384 in
set_option maxHeartbeats 50400000 in
theorem ops_arg4 : after (ops (F := F)) V (Proc.devRef .tc main_arg4) = V (Proc.devRef .tc main_arg4) := by
  simp only [ops]
  after_results_simp
set_option maxRecDepth 16384 in
set_option maxHeartbeats 50400000 in
theorem ops_arg5 : after (ops (F := F)) V (Proc.devRef .tc main_arg5) = V (Proc.devRef .tc main_arg5) := by
  simp only [ops]
  after_results_simp
set_option maxRecDepth 16384 in
set_option maxHeartbeats 50400000 in
theorem ops_arg6 : after (ops (F := F)) V (Proc.devRef .tc main_arg6) = V (Proc.devRef .tc main_arg6) := by
  simp only [ops]
  after_results_simp
set_option maxRecDepth 16384 in
set_option maxHeartbeats 50400000 in
theorem ops_arg7 : after (ops (F := F)) V (Proc.devRef .tc main_arg7) = V (Proc.devRef .tc main_arg7) := by
  simp only [ops]
  after_results_simp
set_option maxRecDepth 16384 in
set_option maxHeartbeats 50400000 in
theorem ops_arg8 : after (ops (F := F)) V (Proc.devRef .tc main_arg8) = V (Proc.devRef .tc main_arg8) := by
  simp only [ops]
  after_results_simp
set_option maxRecDepth 16384 in
set_option maxHeartbeats 50400000 in
theorem ops_arg9 : after (ops (F := F)) V (Proc.devRef .tc main_arg9) = V (Proc.devRef .tc main_arg9) := by
  simp only [ops]
  after_results_simp

end Cert.ReferenceIdeal.Bridge

end
-- ==== Proof.Stages.lean ====
/-
  The dense product both programs compute four times.

  A layer of the graph convolution first multiplies the node features x : f32[20000, 256] by a weight matrix
  W : f32[256, 256]. The reference does it with one host contraction of the second axis of x against the first axis
  of W; at the ideal values entry (r, c) of the result is Σ_{k < 256} x(r, k) · W(k, c). The kernel's row-tiled
  launches are compared with this function.
-/
import proofs.«148648_j43482248905435_1_alg».proof.ReferenceIdeal
import Idealize.ShloMosaic.PureOps.Ideal

noncomputable section

namespace Cert.ReferenceIdeal.Stages

open Idealize.ShloMosaic Cert.ReferenceIdeal
open Cert.ReferenceIdeal.Facts₀ Cert.ReferenceIdeal.Facts

variable [Cert.ReferenceIdeal.Facts]

/-- Node features / a layer's output: f32[20000, 256]. -/
abbrev Feat := FVec Ideal S20000x256 .f32
/-- A layer's weights: f32[256, 256]. -/
abbrev Wts := FVec Ideal S256x256 .f32

/-- The dense product `x · W`, as the reference's host contraction over the shared axis. -/
def prod (l : Feat) (r : Wts) : Feat :=
  Host.dotGeneral (F := Ideal) dot_S20000x256_S256x256_S20000x256_1_0_0_1_n_n none l r

end Cert.ReferenceIdeal.Stages

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.Region0.lean ====
/-
  The row-tiled product is the whole product: the first dense product of the program.

  The left operand X : [20000, 256] is cut into ten blocks of 2000 consecutive rows; block t holds the rows
  2000·t … 2000·t + 1999, and every block is multiplied by the whole of W : [256, 256]. Entry (p, q) of block t's
  product is Σ_{k < 256} X(2000·t + p, k) · W(k, q): it reads one row of X and one column of W, so it is entry
  (2000·t + p, q) of X · W. Row r of the result lies in block r / 2000, so the ten blocks fill the result and the
  array ends holding X · W, the contraction of the second axis of X against the first axis of W.
-/
import proofs.«148648_j43482248905435_1_alg».proof.Proof.Gen.KernelIdeal.Frame
import proofs.«148648_j43482248905435_1_alg».proof.Proof.Gen.ReferenceIdeal
import proofs.«148648_j43482248905435_1_alg».proof.Proof.Stages
import proofs.«148648_j43482248905435_1_alg».proof.Proof.LibPlainDot
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.LibPlainDot (Plain)

/-- The zero offsets, as a constant function. -/
theorem zeros0 : (![0, 0] : Fin 2 → Nat) = fun _ => 0 := funext fun a => by fin_cases a <;> rfl

/-- The block product [2000, 256] × [256, 256] contracts the second axis of the left operand against the first axis
    of the right one, with no batch axis. -/
theorem plainTile0 : Plain (A := 2000) (K := 256) (B := 256) Cert.KernelIdeal.dot_S2000x256_S256x256_S2000x256_1_0_0_1_n_n :=
  ⟨rfl, rfl, rfl, rfl, rfl, rfl⟩

/-- So does the whole product [20000, 256] × [256, 256]. -/
theorem plainWhole0 : Plain (A := 20000) (K := 256) (B := 256) Cert.ReferenceIdeal.dot_S20000x256_S256x256_S20000x256_1_0_0_1_n_n :=
  ⟨rfl, rfl, rfl, rfl, rfl, rfl⟩

/-- What one point computes from its two blocks, at entry (p, q): narrowing a float changes nothing at the ideal
    values, and the product accumulated onto zero is Σ_{k < 256} x0 (p, k) · x1 (k, q). -/
theorem pay0_apply (x0 : Vec Ideal S2000x256 .f32) (x1 : Vec Ideal S256x256 .f32) (p : Fin 2000) (q : Fin 256) :
    k0_pay1 (F := Ideal) x0 x1 (ix2 p q) = ∑ k : Fin 256, x0 (ix2 p k) * x1 (ix2 k q) := by
  unfold k0_pay1
  refine (Ideal.matmul_constant_zero_apply _ none _ _ (ix2 p q)).trans ?_
  exact plainTile0.sum_eq x0 x1 p q

/-- The block indices at point t, at each of the ten points: the left operand's and the result's block is (t, 0),
    the right operand's is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- Entry (p, k) of the left operand's block at point t is entry (2000·t + p, k) of the left operand. -/
theorem blk0_left (c : Dev nD) (t : Fin cfg0.N) (p : Fin 2000) (k : Fin 256) (h : 2000 * t.val + p.val < 20000) :
    (iblk0 (F := Ideal) V c 0 t : Vec Ideal S2000x256 .f32) (ix2 p k)
      = (V c main_arg0 : S20000x256.Idx → Elt Ideal .f32) (ix2 ⟨2000 * t.val + p.val, h⟩ k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; omega
  | ⟨1, _⟩ => show win0_0.index t (1 : Fin 2) * 256 + 1 * k.val = k.val; omega

/-- The right operand's block at every point is the right operand. -/
theorem blk0_right (c : Dev nD) (t : Fin cfg0.N) (k : Fin 256) (q : Fin 256) :
    (iblk0 (F := Ideal) V c 1 t : Vec Ideal S256x256 .f32) (ix2 k q)
      = (V c main_arg2 : S256x256.Idx → Elt Ideal .f32) (ix2 k q) := by
  obtain ⟨-, -, e2, e3, -, -⟩ := idx_facts0 t
  unfold iblk0
  rw [View.read_apply]
  show V c main_arg2 _ = V c main_arg2 _
  congr 1
  funext a
  apply Fin.ext
  match a with
  | ⟨0, _⟩ => show win0_1.index t (0 : Fin 2) * 256 + 1 * k.val = k.val; omega
  | ⟨1, _⟩ => show win0_1.index t (1 : Fin 2) * 256 + 1 * q.val = q.val; omega

/-- What point t writes back is block t of the whole product: entry (p, q) of the block product is
    Σ_k X(2000·t + p, k) · W(k, q), which is entry (2000·t + p, q) of X · W. -/
theorem flushed0_eq (c : Dev nD) (t : Fin cfg0.N) :
    (dat0 (F := Ideal) V c).flushed 2 t
      = ((cfg0.win 2).blk t).view.read (Elt Ideal) (Cert.ReferenceIdeal.Stages.prod (V c main_arg0) (V c main_arg2)) := by
  show (cfg0.win 2).cut (grid0.coords t) ((dat0 (F := Ideal) V c).after 2 t) = _
  rw [after0_2]
  unfold out0_2
  rw [View.canon_unit_zero zeros0]
  simp only [View.ld_unit_zero (S := S2000x256) zeros0, View.ld_unit_zero (S := S256x256) zeros0]
  obtain ⟨-, -, -, -, e4, e5⟩ := idx_facts0 t
  have hN : t.val < 10 := lt_of_lt_of_eq t.isLt N_0
  funext j
  obtain ⟨p, q, rfl⟩ : ∃ (p : Fin 2000) (q : Fin 256), j = ix2 p q := ⟨j 0, j 1, eq_ix2 j⟩
  have hp : 2000 * t.val + p.val < 20000 := by have := p.isLt; omega
  have hemb : ((cfg0.win 2).blk t).view.emb (ix2 p q) = (ix2 ⟨2000 * t.val + p.val, hp⟩ q : S20000x256.Idx) := by
    funext a
    apply Fin.ext
    match a with
    | ⟨0, _⟩ => show win0_2.index t (0 : Fin 2) * 2000 + 1 * p.val = 2000 * t.val + p.val; omega
    | ⟨1, _⟩ => show win0_2.index t (1 : Fin 2) * 256 + 1 * q.val = q.val; omega
  refine (pay0_apply _ _ p q).trans ?_
  refine Eq.trans ?_ (congrArg (Cert.ReferenceIdeal.Stages.prod (V c main_arg0) (V c main_arg2)) hemb).symm
  refine Eq.trans ?_ (plainWhole0.dotGeneral_apply none .single (V c main_arg0) (V c main_arg2) ⟨_, hp⟩ q).symm
  exact Finset.sum_congr rfl fun k _ => by rw [blk0_left V c t p k hp, blk0_right V c t k q]

/-- An entry of the result lies in point t's block iff each of its coordinates lies in the block's range. -/
theorem mem_blk0 (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every entry of the result lies in some point's block: row r lies in block r / 2000. -/
theorem cover0 (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  have ht : (i 0).val / 2000 < cfg0.N := by rw [show cfg0.N = 10 from N_0]; omega
  obtain ⟨-, -, -, -, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    rw [e5]
    omega

/-- The result array after the ten points is the whole product X · W of the two operands as the points found them. -/
theorem final0 (c : Dev nD) :
    (Gen.dat0 (F := Ideal) V c).arrAt 2 cfg0.N = Cert.ReferenceIdeal.Stages.prod (V c main_arg0) (V c main_arg2) :=
  (dat0 (F := Ideal) V c).arrAt_eq_of_cover 2 (Cert.ReferenceIdeal.Stages.prod (V c main_arg0) (V c main_arg2))
    (fun t _ => flushed0_eq V c t) cover0

end

end Cert.KernelIdeal.Bridge

end
-- ==== Proof.Region1.lean ====
/-
  The row-tiled product is the whole product: the second dense product of the program.

  The left operand X : [20000, 256] is cut into ten blocks of 2000 consecutive rows; block t holds the rows
  2000·t … 2000·t + 1999, and every block is multiplied by the whole of W : [256, 256]. Entry (p, q) of block t's
  product is Σ_{k < 256} X(2000·t + p, k) · W(k, q): it reads one row of X and one column of W, so it is entry
  (2000·t + p, q) of X · W. Row r of the result lies in block r / 2000, so the ten blocks fill the result and the
  array ends holding X · W, the contraction of the second axis of X against the first axis of W.
-/
import proofs.«148648_j43482248905435_1_alg».proof.Proof.Gen.KernelIdeal.Frame
import proofs.«148648_j43482248905435_1_alg».proof.Proof.Gen.ReferenceIdeal
import proofs.«148648_j43482248905435_1_alg».proof.Proof.Stages
import proofs.«148648_j43482248905435_1_alg».proof.Proof.LibPlainDot
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.LibPlainDot (Plain)

/-- The zero offsets, as a constant function. -/
theorem zeros1 : (![0, 0] : Fin 2 → Nat) = fun _ => 0 := funext fun a => by fin_cases a <;> rfl

/-- The block product [2000, 256] × [256, 256] contracts the second axis of the left operand against the first axis
    of the right one, with no batch axis. -/
theorem plainTile1 : Plain (A := 2000) (K := 256) (B := 256) Cert.KernelIdeal.dot_S2000x256_S256x256_S2000x256_1_0_0_1_n_n :=
  ⟨rfl, rfl, rfl, rfl, rfl, rfl⟩

/-- So does the whole product [20000, 256] × [256, 256]. -/
theorem plainWhole1 : Plain (A := 20000) (K := 256) (B := 256) Cert.ReferenceIdeal.dot_S20000x256_S256x256_S20000x256_1_0_0_1_n_n :=
  ⟨rfl, rfl, rfl, rfl, rfl, rfl⟩

/-- What one point computes from its two blocks, at entry (p, q): narrowing a float changes nothing at the ideal
    values, and the product accumulated onto zero is Σ_{k < 256} x0 (p, k) · x1 (k, q). -/
theorem pay1_apply (x0 : Vec Ideal S2000x256 .f32) (x1 : Vec Ideal S256x256 .f32) (p : Fin 2000) (q : Fin 256) :
    k1_pay1 (F := Ideal) x0 x1 (ix2 p q) = ∑ k : Fin 256, x0 (ix2 p k) * x1 (ix2 k q) := by
  unfold k1_pay1
  refine (Ideal.matmul_constant_zero_apply _ none _ _ (ix2 p q)).trans ?_
  refine Eq.trans ?_ (plainTile1.sum_eq x0 x1 p q)
  refine Finset.sum_congr rfl fun k _ => ?_
  exact congrArg (fun z : EReal => z * x1 (Cert.KernelIdeal.dot_S2000x256_S256x256_S2000x256_1_0_0_1_n_n.rhsIdx (ix2 p q) k))
    (congrFun (shapeCast_self x0 shapeCasts_S2000x256_S2000x256) _)

/-- The block indices at point t, at each of the ten points: the left operand's and the result's block is (t, 0),
    the right operand's is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- Entry (p, k) of the left operand's block at point t is entry (2000·t + p, k) of the left operand. -/
theorem blk1_left (c : Dev nD) (t : Fin cfg1.N) (p : Fin 2000) (k : Fin 256) (h : 2000 * t.val + p.val < 20000) :
    (iblk1 (F := Ideal) V c 0 t : Vec Ideal S2000x256 .f32) (ix2 p k)
      = (V c main_v47 : S20000x256.Idx → Elt Ideal .f32) (ix2 ⟨2000 * t.val + p.val, h⟩ k) := by
  obtain ⟨e0, e1, -, -, -, -⟩ := idx_facts1 t
  unfold iblk1
  rw [View.read_apply]
  show V c main_v47 _ = V c main_v47 _
  congr 1
  funext a
  apply Fin.ext
  match a with
  | ⟨0, _⟩ => show win1_0.index t (0 : Fin 2) * 2000 + 1 * p.val = 2000 * t.val + p.val; omega
  | ⟨1, _⟩ => show win1_0.index t (1 : Fin 2) * 256 + 1 * k.val = k.val; omega

/-- The right operand's block at every point is the right operand. -/
theorem blk1_right (c : Dev nD) (t : Fin cfg1.N) (k : Fin 256) (q : Fin 256) :
    (iblk1 (F := Ideal) V c 1 t : Vec Ideal S256x256 .f32) (ix2 k q)
      = (V c main_arg4 : S256x256.Idx → Elt Ideal .f32) (ix2 k q) := by
  obtain ⟨-, -, e2, e3, -, -⟩ := idx_facts1 t
  unfold iblk1
  rw [View.read_apply]
  show V c main_arg4 _ = V c main_arg4 _
  congr 1
  funext a
  apply Fin.ext
  match a with
  | ⟨0, _⟩ => show win1_1.index t (0 : Fin 2) * 256 + 1 * k.val = k.val; omega
  | ⟨1, _⟩ => show win1_1.index t (1 : Fin 2) * 256 + 1 * q.val = q.val; omega

/-- What point t writes back is block t of the whole product: entry (p, q) of the block product is
    Σ_k X(2000·t + p, k) · W(k, q), which is entry (2000·t + p, q) of X · W. -/
theorem flushed1_eq (c : Dev nD) (t : Fin cfg1.N) :
    (dat1 (F := Ideal) V c).flushed 2 t
      = ((cfg1.win 2).blk t).view.read (Elt Ideal) (Cert.ReferenceIdeal.Stages.prod (V c main_v47) (V c main_arg4)) := by
  show (cfg1.win 2).cut (grid1.coords t) ((dat1 (F := Ideal) V c).after 2 t) = _
  rw [after1_2]
  unfold out1_2
  rw [View.canon_unit_zero zeros1]
  simp only [View.ld_unit_zero (S := S2000x256) zeros1, View.ld_unit_zero (S := S256x256) zeros1]
  obtain ⟨-, -, -, -, e4, e5⟩ := idx_facts1 t
  have hN : t.val < 10 := lt_of_lt_of_eq t.isLt N_1
  funext j
  obtain ⟨p, q, rfl⟩ : ∃ (p : Fin 2000) (q : Fin 256), j = ix2 p q := ⟨j 0, j 1, eq_ix2 j⟩
  have hp : 2000 * t.val + p.val < 20000 := by have := p.isLt; omega
  have hemb : ((cfg1.win 2).blk t).view.emb (ix2 p q) = (ix2 ⟨2000 * t.val + p.val, hp⟩ q : S20000x256.Idx) := by
    funext a
    apply Fin.ext
    match a with
    | ⟨0, _⟩ => show win1_2.index t (0 : Fin 2) * 2000 + 1 * p.val = 2000 * t.val + p.val; omega
    | ⟨1, _⟩ => show win1_2.index t (1 : Fin 2) * 256 + 1 * q.val = q.val; omega
  refine (pay1_apply _ _ p q).trans ?_
  refine Eq.trans ?_ (congrArg (Cert.ReferenceIdeal.Stages.prod (V c main_v47) (V c main_arg4)) hemb).symm
  refine Eq.trans ?_ (plainWhole1.dotGeneral_apply none .single (V c main_v47) (V c main_arg4) ⟨_, hp⟩ q).symm
  exact Finset.sum_congr rfl fun k _ => by rw [blk1_left V c t p k hp, blk1_right V c t k q]

/-- An entry of the result lies in point t's block iff each of its coordinates lies in the block's range. -/
theorem mem_blk1 (t : Fin cfg1.N) (i : S20000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v48).slice (win1_2.rect t)).set ↔ _
  rw [View.set_slice_whole, Rect.mem_set_unit]
  exact Iff.rfl

/-- Every entry of the result lies in some point's block: row r lies in block r / 2000. -/
theorem cover1 (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  have ht : (i 0).val / 2000 < cfg1.N := by rw [show cfg1.N = 10 from N_1]; omega
  obtain ⟨-, -, -, -, e4, e5⟩ := idx_facts1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 256 ≤ (i 1).val
      ∧ (i 1).val < win1_2.index ⟨(i 0).val / 2000, ht⟩ (1 : Fin 2) * 256 + 256
    rw [e5]
    omega

/-- The result array after the ten points is the whole product X · W of the two operands as the points found them. -/
theorem final1 (c : Dev nD) :
    (Gen.dat1 (F := Ideal) V c).arrAt 2 cfg1.N = Cert.ReferenceIdeal.Stages.prod (V c main_v47) (V c main_arg4) :=
  (dat1 (F := Ideal) V c).arrAt_eq_of_cover 2 (Cert.ReferenceIdeal.Stages.prod (V c main_v47) (V c main_arg4))
    (fun t _ => flushed1_eq V c t) cover1

end

end Cert.KernelIdeal.Bridge

end
-- ==== Proof.Region2.lean ====
/-
  The row-tiled product is the whole product: the third dense product of the program.

  The left operand X : [20000, 256] is cut into ten blocks of 2000 consecutive rows; block t holds the rows
  2000·t … 2000·t + 1999, and every block is multiplied by the whole of W : [256, 256]. Entry (p, q) of block t's
  product is Σ_{k < 256} X(2000·t + p, k) · W(k, q): it reads one row of X and one column of W, so it is entry
  (2000·t + p, q) of X · W. Row r of the result lies in block r / 2000, so the ten blocks fill the result and the
  array ends holding X · W, the contraction of the second axis of X against the first axis of W.
-/
import proofs.«148648_j43482248905435_1_alg».proof.Proof.Gen.KernelIdeal.Frame
import proofs.«148648_j43482248905435_1_alg».proof.Proof.Gen.ReferenceIdeal
import proofs.«148648_j43482248905435_1_alg».proof.Proof.Stages
import proofs.«148648_j43482248905435_1_alg».proof.Proof.LibPlainDot
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.LibPlainDot (Plain)

/-- The zero offsets, as a constant function. -/
theorem zeros2 : (![0, 0] : Fin 2 → Nat) = fun _ => 0 := funext fun a => by fin_cases a <;> rfl

/-- The block product [2000, 256] × [256, 256] contracts the second axis of the left operand against the first axis
    of the right one, with no batch axis. -/
theorem plainTile2 : Plain (A := 2000) (K := 256) (B := 256) Cert.KernelIdeal.dot_S2000x256_S256x256_S2000x256_1_0_0_1_n_n :=
  ⟨rfl, rfl, rfl, rfl, rfl, rfl⟩

/-- So does the whole product [20000, 256] × [256, 256]. -/
theorem plainWhole2 : Plain (A := 20000) (K := 256) (B := 256) Cert.ReferenceIdeal.dot_S20000x256_S256x256_S20000x256_1_0_0_1_n_n :=
  ⟨rfl, rfl, rfl, rfl, rfl, rfl⟩

/-- What one point computes from its two blocks, at entry (p, q): narrowing a float changes nothing at the ideal
    values, and the product accumulated onto zero is Σ_{k < 256} x0 (p, k) · x1 (k, q). -/
theorem pay2_apply (x0 : Vec Ideal S2000x256 .f32) (x1 : Vec Ideal S256x256 .f32) (p : Fin 2000) (q : Fin 256) :
    k2_pay1 (F := Ideal) x0 x1 (ix2 p q) = ∑ k : Fin 256, x0 (ix2 p k) * x1 (ix2 k q) := by
  unfold k2_pay1
  refine (Ideal.matmul_constant_zero_apply _ none _ _ (ix2 p q)).trans ?_
  refine Eq.trans ?_ (plainTile2.sum_eq x0 x1 p q)
  refine Finset.sum_congr rfl fun k _ => ?_
  exact congrArg (fun z : EReal => z * x1 (Cert.KernelIdeal.dot_S2000x256_S256x256_S2000x256_1_0_0_1_n_n.rhsIdx (ix2 p q) k))
    (congrFun (shapeCast_self x0 shapeCasts_S2000x256_S2000x256) _)

/-- The block indices at point t, at each of the ten points: the left operand's and the result's block is (t, 0),
    the right operand's is (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- Entry (p, k) of the left operand's block at point t is entry (2000·t + p, k) of the left operand. -/
theorem blk2_left (c : Dev nD) (t : Fin cfg2.N) (p : Fin 2000) (k : Fin 256) (h : 2000 * t.val + p.val < 20000) :
    (iblk2 (F := Ideal) V c 0 t : Vec Ideal S2000x256 .f32) (ix2 p k)
      = (V c main_v65 : S20000x256.Idx → Elt Ideal .f32) (ix2 ⟨2000 * t.val + p.val, h⟩ k) := by
  obtain ⟨e0, e1, -, -, -, -⟩ := idx_facts2 t
  unfold iblk2
  rw [View.read_apply]
  show V c main_v65 _ = V c main_v65 _
  congr 1
  funext a
  apply Fin.ext
  match a with
  | ⟨0, _⟩ => show win2_0.index t (0 : Fin 2) * 2000 + 1 * p.val = 2000 * t.val + p.val; omega
  | ⟨1, _⟩ => show win2_0.index t (1 : Fin 2) * 256 + 1 * k.val = k.val; omega

/-- The right operand's block at every point is the right operand. -/
theorem blk2_right (c : Dev nD) (t : Fin cfg2.N) (k : Fin 256) (q : Fin 256) :
    (iblk2 (F := Ideal) V c 1 t : Vec Ideal S256x256 .f32) (ix2 k q)
      = (V c main_arg6 : S256x256.Idx → Elt Ideal .f32) (ix2 k q) := by
  obtain ⟨-, -, e2, e3, -, -⟩ := idx_facts2 t
  unfold iblk2
  rw [View.read_apply]
  show V c main_arg6 _ = V c main_arg6 _
  congr 1
  funext a
  apply Fin.ext
  match a with
  | ⟨0, _⟩ => show win2_1.index t (0 : Fin 2) * 256 + 1 * k.val = k.val; omega
  | ⟨1, _⟩ => show win2_1.index t (1 : Fin 2) * 256 + 1 * q.val = q.val; omega

/-- What point t writes back is block t of the whole product: entry (p, q) of the block product is
    Σ_k X(2000·t + p, k) · W(k, q), which is entry (2000·t + p, q) of X · W. -/
theorem flushed2_eq (c : Dev nD) (t : Fin cfg2.N) :
    (dat2 (F := Ideal) V c).flushed 2 t
      = ((cfg2.win 2).blk t).view.read (Elt Ideal) (Cert.ReferenceIdeal.Stages.prod (V c main_v65) (V c main_arg6)) := by
  show (cfg2.win 2).cut (grid2.coords t) ((dat2 (F := Ideal) V c).after 2 t) = _
  rw [after2_2]
  unfold out2_2
  rw [View.canon_unit_zero zeros2]
  simp only [View.ld_unit_zero (S := S2000x256) zeros2, View.ld_unit_zero (S := S256x256) zeros2]
  obtain ⟨-, -, -, -, e4, e5⟩ := idx_facts2 t
  have hN : t.val < 10 := lt_of_lt_of_eq t.isLt N_2
  funext j
  obtain ⟨p, q, rfl⟩ : ∃ (p : Fin 2000) (q : Fin 256), j = ix2 p q := ⟨j 0, j 1, eq_ix2 j⟩
  have hp : 2000 * t.val + p.val < 20000 := by have := p.isLt; omega
  have hemb : ((cfg2.win 2).blk t).view.emb (ix2 p q) = (ix2 ⟨2000 * t.val + p.val, hp⟩ q : S20000x256.Idx) := by
    funext a
    apply Fin.ext
    match a with
    | ⟨0, _⟩ => show win2_2.index t (0 : Fin 2) * 2000 + 1 * p.val = 2000 * t.val + p.val; omega
    | ⟨1, _⟩ => show win2_2.index t (1 : Fin 2) * 256 + 1 * q.val = q.val; omega
  refine (pay2_apply _ _ p q).trans ?_
  refine Eq.trans ?_ (congrArg (Cert.ReferenceIdeal.Stages.prod (V c main_v65) (V c main_arg6)) hemb).symm
  refine Eq.trans ?_ (plainWhole2.dotGeneral_apply none .single (V c main_v65) (V c main_arg6) ⟨_, hp⟩ q).symm
  exact Finset.sum_congr rfl fun k _ => by rw [blk2_left V c t p k hp, blk2_right V c t k q]

/-- An entry of the result lies in point t's block iff each of its coordinates lies in the block's range. -/
theorem mem_blk2 (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v66).slice (win2_2.rect t)).set ↔ _
  rw [View.set_slice_whole, Rect.mem_set_unit]
  exact Iff.rfl

/-- Every entry of the result lies in some point's block: row r lies in block r / 2000. -/
theorem cover2 (i : S20000x256.Idx) :
    ∃ t : Fin cfg2.N, (cfg2.win 2).flush t = true ∧ i ∈ ((cfg2.win 2).blk t).view.set := by
  have hi0 : (i 0).val < 20000 := (i 0).isLt
  have hi1 : (i 1).val < 256 := (i 1).isLt
  have ht : (i 0).val / 2000 < cfg2.N := by rw [show cfg2.N = 10 from N_2]; omega
  obtain ⟨-, -, -, -, e4, e5⟩ := idx_facts2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 256 ≤ (i 1).val
      ∧ (i 1).val < win2_2.index ⟨(i 0).val / 2000, ht⟩ (1 : Fin 2) * 256 + 256
    rw [e5]
    omega

/-- The result array after the ten points is the whole product X · W of the two operands as the points found them. -/
theorem final2 (c : Dev nD) :
    (Gen.dat2 (F := Ideal) V c).arrAt 2 cfg2.N = Cert.ReferenceIdeal.Stages.prod (V c main_v65) (V c main_arg6) :=
  (dat2 (F := Ideal) V c).arrAt_eq_of_cover 2 (Cert.ReferenceIdeal.Stages.prod (V c main_v65) (V c main_arg6))
    (fun t _ => flushed2_eq V c t) cover2

end

end Cert.KernelIdeal.Bridge

end
-- ==== Proof.Region3.lean ====
/-
  The row-tiled product is the whole product: the fourth dense product of the program.

  The left operand X : [20000, 256] is cut into ten blocks of 2000 consecutive rows; block t holds the rows
  2000·t … 2000·t + 1999, and every block is multiplied by the whole of W : [256, 256]. Entry (p, q) of block t's
  product is Σ_{k < 256} X(2000·t + p, k) · W(k, q): it reads one row of X and one column of W, so it is entry
  (2000·t + p, q) of X · W. Row r of the result lies in block r / 2000, so the ten blocks fill the result and the
  array ends holding X · W, the contraction of the second axis of X against the first axis of W.
-/
import proofs.«148648_j43482248905435_1_alg».proof.Proof.Gen.KernelIdeal.Frame
import proofs.«148648_j43482248905435_1_alg».proof.Proof.Gen.ReferenceIdeal
import proofs.«148648_j43482248905435_1_alg».proof.Proof.Stages
import proofs.«148648_j43482248905435_1_alg».proof.Proof.LibPlainDot
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.LibPlainDot (Plain)

/-- The zero offsets, as a constant function. -/
theorem zeros3 : (![0, 0] : Fin 2 → Nat) = fun _ => 0 := funext fun a => by fin_cases a <;> rfl

/-- The block product [2000, 256] × [256, 256] contracts the second axis of the left operand against the first axis
    of the right one, with no batch axis. -/
theorem plainTile3 : Plain (A := 2000) (K := 256) (B := 256) Cert.KernelIdeal.dot_S2000x256_S256x256_S2000x256_1_0_0_1_n_n :=
  ⟨rfl, rfl, rfl, rfl, rfl, rfl⟩

/-- So does the whole product [20000, 256] × [256, 256]. -/
theorem plainWhole3 : Plain (A := 20000) (K := 256) (B := 256) Cert.ReferenceIdeal.dot_S20000x256_S256x256_S20000x256_1_0_0_1_n_n :=
  ⟨rfl, rfl, rfl, rfl, rfl, rfl⟩

/-- What one point computes from its two blocks, at entry (p, q): narrowing a float changes nothing at the ideal
    values, and the product accumulated onto zero is Σ_{k < 256} x0 (p, k) · x1 (k, q). -/
theorem pay3_apply (x0 : Vec Ideal S2000x256 .f32) (x1 : Vec Ideal S256x256 .f32) (p : Fin 2000) (q : Fin 256) :
    k3_pay1 (F := Ideal) x0 x1 (ix2 p q) = ∑ k : Fin 256, x0 (ix2 p k) * x1 (ix2 k q) := by
  unfold k3_pay1
  refine (Ideal.matmul_constant_zero_apply _ none _ _ (ix2 p q)).trans ?_
  refine Eq.trans ?_ (plainTile3.sum_eq x0 x1 p q)
  refine Finset.sum_congr rfl fun k _ => ?_
  exact congrArg (fun z : EReal => z * x1 (Cert.KernelIdeal.dot_S2000x256_S256x256_S2000x256_1_0_0_1_n_n.rhsIdx (ix2 p q) k))
    (congrFun (shapeCast_self x0 shapeCasts_S2000x256_S2000x256) _)

/-- The block indices at point t, at each of the ten points: the left operand's and the result's block is (t, 0),
    the right operand's is (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- Entry (p, k) of the left operand's block at point t is entry (2000·t + p, k) of the left operand. -/
theorem blk3_left (c : Dev nD) (t : Fin cfg3.N) (p : Fin 2000) (k : Fin 256) (h : 2000 * t.val + p.val < 20000) :
    (iblk3 (F := Ideal) V c 0 t : Vec Ideal S2000x256 .f32) (ix2 p k)
      = (V c main_v65 : S20000x256.Idx → Elt Ideal .f32) (ix2 ⟨2000 * t.val + p.val, h⟩ k) := by
  obtain ⟨e0, e1, -, -, -, -⟩ := idx_facts3 t
  unfold iblk3
  rw [View.read_apply]
  show V c main_v65 _ = V c main_v65 _
  congr 1
  funext a
  apply Fin.ext
  match a with
  | ⟨0, _⟩ => show win3_0.index t (0 : Fin 2) * 2000 + 1 * p.val = 2000 * t.val + p.val; omega
  | ⟨1, _⟩ => show win3_0.index t (1 : Fin 2) * 256 + 1 * k.val = k.val; omega

/-- The right operand's block at every point is the right operand. -/
theorem blk3_right (c : Dev nD) (t : Fin cfg3.N) (k : Fin 256) (q : Fin 256) :
    (iblk3 (F := Ideal) V c 1 t : Vec Ideal S256x256 .f32) (ix2 k q)
      = (V c main_arg8 : S256x256.Idx → Elt Ideal .f32) (ix2 k q) := by
  obtain ⟨-, -, e2, e3, -, -⟩ := idx_facts3 t
  unfold iblk3
  rw [View.read_apply]
  show V c main_arg8 _ = V c main_arg8 _
  congr 1
  funext a
  apply Fin.ext
  match a with
  | ⟨0, _⟩ => show win3_1.index t (0 : Fin 2) * 256 + 1 * k.val = k.val; omega
  | ⟨1, _⟩ => show win3_1.index t (1 : Fin 2) * 256 + 1 * q.val = q.val; omega

/-- What point t writes back is block t of the whole product: entry (p, q) of the block product is
    Σ_k X(2000·t + p, k) · W(k, q), which is entry (2000·t + p, q) of X · W. -/
theorem flushed3_eq (c : Dev nD) (t : Fin cfg3.N) :
    (dat3 (F := Ideal) V c).flushed 2 t
      = ((cfg3.win 2).blk t).view.read (Elt Ideal) (Cert.ReferenceIdeal.Stages.prod (V c main_v65) (V c main_arg8)) := by
  show (cfg3.win 2).cut (grid3.coords t) ((dat3 (F := Ideal) V c).after 2 t) = _
  rw [after3_2]
  unfold out3_2
  rw [View.canon_unit_zero zeros3]
  simp only [View.ld_unit_zero (S := S2000x256) zeros3, View.ld_unit_zero (S := S256x256) zeros3]
  obtain ⟨-, -, -, -, e4, e5⟩ := idx_facts3 t
  have hN : t.val < 10 := lt_of_lt_of_eq t.isLt N_3
  funext j
  obtain ⟨p, q, rfl⟩ : ∃ (p : Fin 2000) (q : Fin 256), j = ix2 p q := ⟨j 0, j 1, eq_ix2 j⟩
  have hp : 2000 * t.val + p.val < 20000 := by have := p.isLt; omega
  have hemb : ((cfg3.win 2).blk t).view.emb (ix2 p q) = (ix2 ⟨2000 * t.val + p.val, hp⟩ q : S20000x256.Idx) := by
    funext a
    apply Fin.ext
    match a with
    | ⟨0, _⟩ => show win3_2.index t (0 : Fin 2) * 2000 + 1 * p.val = 2000 * t.val + p.val; omega
    | ⟨1, _⟩ => show win3_2.index t (1 : Fin 2) * 256 + 1 * q.val = q.val; omega
  refine (pay3_apply _ _ p q).trans ?_
  refine Eq.trans ?_ (congrArg (Cert.ReferenceIdeal.Stages.prod (V c main_v65) (V c main_arg8)) hemb).symm
  refine Eq.trans ?_ (plainWhole3.dotGeneral_apply none .single (V c main_v65) (V c main_arg8) ⟨_, hp⟩ q).symm
  exact Finset.sum_congr rfl fun k _ => by rw [blk3_left V c t p k hp, blk3_right V c t k q]

/-- An entry of the result lies in point t's block iff each of its coordinates lies in the block's range. -/
theorem mem_blk3 (t : Fin cfg3.N) (i : S20000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v83).slice (win3_2.rect t)).set ↔ _
  rw [View.set_slice_whole, Rect.mem_set_unit]
  exact Iff.rfl

/-- Every entry of the result lies in some point's block: row r lies in block r / 2000. -/
theorem cover3 (i : S20000x256.Idx) :
    ∃ t : Fin cfg3.N, (cfg3.win 2).flush t = true ∧ i ∈ ((cfg3.win 2).blk t).view.set := by
  have hi0 : (i 0).val < 20000 := (i 0).isLt
  have hi1 : (i 1).val < 256 := (i 1).isLt
  have ht : (i 0).val / 2000 < cfg3.N := by rw [show cfg3.N = 10 from N_3]; omega
  obtain ⟨-, -, -, -, e4, e5⟩ := idx_facts3 ⟨(i 0).val / 2000, ht⟩
  refine ⟨⟨(i 0).val / 2000, ht⟩, flush3_2 _, ?_⟩
  rw [mem_blk3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 256 ≤ (i 1).val
      ∧ (i 1).val < win3_2.index ⟨(i 0).val / 2000, ht⟩ (1 : Fin 2) * 256 + 256
    rw [e5]
    omega

/-- The result array after the ten points is the whole product X · W of the two operands as the points found them. -/
theorem final3 (c : Dev nD) :
    (Gen.dat3 (F := Ideal) V c).arrAt 2 cfg3.N = Cert.ReferenceIdeal.Stages.prod (V c main_v65) (V c main_arg8) :=
  (dat3 (F := Ideal) V c).arrAt_eq_of_cover 2 (Cert.ReferenceIdeal.Stages.prod (V c main_v65) (V c main_arg8))
    (fun t _ => flushed3_eq V c t) cover3

end

end Cert.KernelIdeal.Bridge

end
-- ==== Proof.KFold.lean ====
/-
  A launch of the tiled product, seen from the host, is ONE operation.

  A launch replaces its three arrays by what the pipeline leaves: the two operand arrays as entered (nothing is
  written back into them), the result array at the ten blocks' write-backs, which together are the dense product of the
  two operands (the four region modules). Every other buffer is untouched. That is exactly what one host operation
  "result := x · W" does to the buffers. So the contents after the whole program are the fold of ONE line of host
  operations over the launch memory: the program's own nine stretches with the four products standing where the
  launches were — the same line the reference runs.
-/
import proofs.«148648_j43482248905435_1_alg».proof.Proof.Gen.KernelIdeal.Frame
import proofs.«148648_j43482248905435_1_alg».proof.Proof.Gen.ReferenceIdeal
import proofs.«148648_j43482248905435_1_alg».proof.Proof.Stages
import proofs.«148648_j43482248905435_1_alg».proof.Proof.Region0
import proofs.«148648_j43482248905435_1_alg».proof.Proof.Region1
import proofs.«148648_j43482248905435_1_alg».proof.Proof.Region2
import proofs.«148648_j43482248905435_1_alg».proof.Proof.Region3
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Launch 0 seen from the host: one operation writing the dense product of its two operands. -/
abbrev dot0 : HloOp τ sig (Elt Ideal) :=
  StableHlo.binary main_arg0 main_arg2 main_v30 ((fun l r => Cert.ReferenceIdeal.Stages.prod l r) : (⟨S20000x256, .f32⟩ : BufTy).Contents (Elt Ideal) → (⟨S256x256, .f32⟩ : BufTy).Contents (Elt Ideal) → (⟨S20000x256, .f32⟩ : BufTy).Contents (Elt Ideal))

/-- Across launch 0 the buffers change exactly as that one operation changes them: the result array ends at the
    product of the operands as entered, the two operand arrays and every other buffer are as entered. -/
theorem W4_eq (c : Dev nD) : W4 m ρ c = StableHlo.after [dot0] (W3 m ρ c) := by
  funext b
  rw [StableHlo.after_cons, StableHlo.after_nil]
  by_cases h : ∃ w, Proc.devRef .tc (Pipeline.arrRef spec0 w) = b
  · obtain ⟨w, rfl⟩ := h
    rw [W4_arr m ρ c w]
    match w with
    | ⟨0, _⟩ =>
      refine (((dat0 (V3 m ρ) c).arrAt_in 0 rfl _).trans (A_eq0 (V3 m ρ) c 0)).trans ?_
      exact (StableHlo.binary_result_ne (τ := τ) main_arg0 main_arg2 main_v30 _ _ _ _ (W3 m ρ c) (r := main_arg0) (by decide)).symm
    | ⟨1, _⟩ =>
      refine (((dat0 (V3 m ρ) c).arrAt_in 1 rfl _).trans (A_eq0 (V3 m ρ) c 1)).trans ?_
      exact (StableHlo.binary_result_ne (τ := τ) main_arg0 main_arg2 main_v30 _ _ _ _ (W3 m ρ c) (r := main_arg2) (by decide)).symm
    | ⟨2, _⟩ =>
      refine (final0 (V3 m ρ) c).trans ?_
      exact (StableHlo.binary_result (τ := τ) main_arg0 main_arg2 main_v30 _ _ _ _ (W3 m ρ c)).symm
  · have hb : b ∉ (dot0 : HloOp τ sig (Elt Ideal)).writes := by
      rw [StableHlo.binary_writes, Finset.mem_singleton]
      exact fun e => h ⟨2, e.symm⟩
    rw [HloOp.result_of_not_mem _ _ hb]
    unfold W4 Pipeline.withArrays
    rw [dif_neg h]

/-- Launch 1 seen from the host: one operation writing the dense product of its two operands. -/
abbrev dot1 : HloOp τ sig (Elt Ideal) :=
  StableHlo.binary main_v47 main_arg4 main_v48 ((fun l r => Cert.ReferenceIdeal.Stages.prod l r) : (⟨S20000x256, .f32⟩ : BufTy).Contents (Elt Ideal) → (⟨S256x256, .f32⟩ : BufTy).Contents (Elt Ideal) → (⟨S20000x256, .f32⟩ : BufTy).Contents (Elt Ideal))

/-- Across launch 1 the buffers change exactly as that one operation changes them: the result array ends at the
    product of the operands as entered, the two operand arrays and every other buffer are as entered. -/
theorem W7_eq (c : Dev nD) : W7 m ρ c = StableHlo.after [dot1] (W6 m ρ c) := by
  funext b
  rw [StableHlo.after_cons, StableHlo.after_nil]
  by_cases h : ∃ w, Proc.devRef .tc (Pipeline.arrRef spec1 w) = b
  · obtain ⟨w, rfl⟩ := h
    rw [W7_arr m ρ c w]
    match w with
    | ⟨0, _⟩ =>
      refine (((dat1 (V6 m ρ) c).arrAt_in 0 rfl _).trans (A_eq1 (V6 m ρ) c 0)).trans ?_
      exact (StableHlo.binary_result_ne (τ := τ) main_v47 main_arg4 main_v48 _ _ _ _ (W6 m ρ c) (r := main_v47) (by decide)).symm
    | ⟨1, _⟩ =>
      refine (((dat1 (V6 m ρ) c).arrAt_in 1 rfl _).trans (A_eq1 (V6 m ρ) c 1)).trans ?_
      exact (StableHlo.binary_result_ne (τ := τ) main_v47 main_arg4 main_v48 _ _ _ _ (W6 m ρ c) (r := main_arg4) (by decide)).symm
    | ⟨2, _⟩ =>
      refine (final1 (V6 m ρ) c).trans ?_
      exact (StableHlo.binary_result (τ := τ) main_v47 main_arg4 main_v48 _ _ _ _ (W6 m ρ c)).symm
  · have hb : b ∉ (dot1 : HloOp τ sig (Elt Ideal)).writes := by
      rw [StableHlo.binary_writes, Finset.mem_singleton]
      exact fun e => h ⟨2, e.symm⟩
    rw [HloOp.result_of_not_mem _ _ hb]
    unfold W7 Pipeline.withArrays
    rw [dif_neg h]

/-- Launch 2 seen from the host: one operation writing the dense product of its two operands. -/
abbrev dot2 : HloOp τ sig (Elt Ideal) :=
  StableHlo.binary main_v65 main_arg6 main_v66 ((fun l r => Cert.ReferenceIdeal.Stages.prod l r) : (⟨S20000x256, .f32⟩ : BufTy).Contents (Elt Ideal) → (⟨S256x256, .f32⟩ : BufTy).Contents (Elt Ideal) → (⟨S20000x256, .f32⟩ : BufTy).Contents (Elt Ideal))

/-- Across launch 2 the buffers change exactly as that one operation changes them: the result array ends at the
    product of the operands as entered, the two operand arrays and every other buffer are as entered. -/
theorem W10_eq (c : Dev nD) : W10 m ρ c = StableHlo.after [dot2] (W9 m ρ c) := by
  funext b
  rw [StableHlo.after_cons, StableHlo.after_nil]
  by_cases h : ∃ w, Proc.devRef .tc (Pipeline.arrRef spec2 w) = b
  · obtain ⟨w, rfl⟩ := h
    rw [W10_arr m ρ c w]
    match w with
    | ⟨0, _⟩ =>
      refine (((dat2 (V9 m ρ) c).arrAt_in 0 rfl _).trans (A_eq2 (V9 m ρ) c 0)).trans ?_
      exact (StableHlo.binary_result_ne (τ := τ) main_v65 main_arg6 main_v66 _ _ _ _ (W9 m ρ c) (r := main_v65) (by decide)).symm
    | ⟨1, _⟩ =>
      refine (((dat2 (V9 m ρ) c).arrAt_in 1 rfl _).trans (A_eq2 (V9 m ρ) c 1)).trans ?_
      exact (StableHlo.binary_result_ne (τ := τ) main_v65 main_arg6 main_v66 _ _ _ _ (W9 m ρ c) (r := main_arg6) (by decide)).symm
    | ⟨2, _⟩ =>
      refine (final2 (V9 m ρ) c).trans ?_
      exact (StableHlo.binary_result (τ := τ) main_v65 main_arg6 main_v66 _ _ _ _ (W9 m ρ c)).symm
  · have hb : b ∉ (dot2 : HloOp τ sig (Elt Ideal)).writes := by
      rw [StableHlo.binary_writes, Finset.mem_singleton]
      exact fun e => h ⟨2, e.symm⟩
    rw [HloOp.result_of_not_mem _ _ hb]
    unfold W10 Pipeline.withArrays
    rw [dif_neg h]

/-- Launch 3 seen from the host: one operation writing the dense product of its two operands. -/
abbrev dot3 : HloOp τ sig (Elt Ideal) :=
  StableHlo.binary main_v65 main_arg8 main_v83 ((fun l r => Cert.ReferenceIdeal.Stages.prod l r) : (⟨S20000x256, .f32⟩ : BufTy).Contents (Elt Ideal) → (⟨S256x256, .f32⟩ : BufTy).Contents (Elt Ideal) → (⟨S20000x256, .f32⟩ : BufTy).Contents (Elt Ideal))

/-- Across launch 3 the buffers change exactly as that one operation changes them: the result array ends at the
    product of the operands as entered, the two operand arrays and every other buffer are as entered. -/
theorem W12_eq (c : Dev nD) : W12 m ρ c = StableHlo.after [dot3] (W11 m ρ c) := by
  funext b
  rw [StableHlo.after_cons, StableHlo.after_nil]
  by_cases h : ∃ w, Proc.devRef .tc (Pipeline.arrRef spec3 w) = b
  · obtain ⟨w, rfl⟩ := h
    rw [W12_arr m ρ c w]
    match w with
    | ⟨0, _⟩ =>
      refine (((dat3 (V11 m ρ) c).arrAt_in 0 rfl _).trans (A_eq3 (V11 m ρ) c 0)).trans ?_
      exact (StableHlo.binary_result_ne (τ := τ) main_v65 main_arg8 main_v83 _ _ _ _ (W11 m ρ c) (r := main_v65) (by decide)).symm
    | ⟨1, _⟩ =>
      refine (((dat3 (V11 m ρ) c).arrAt_in 1 rfl _).trans (A_eq3 (V11 m ρ) c 1)).trans ?_
      exact (StableHlo.binary_result_ne (τ := τ) main_v65 main_arg8 main_v83 _ _ _ _ (W11 m ρ c) (r := main_arg8) (by decide)).symm
    | ⟨2, _⟩ =>
      refine (final3 (V11 m ρ) c).trans ?_
      exact (StableHlo.binary_result (τ := τ) main_v65 main_arg8 main_v83 _ _ _ _ (W11 m ρ c)).symm
  · have hb : b ∉ (dot3 : HloOp τ sig (Elt Ideal)).writes := by
      rw [StableHlo.binary_writes, Finset.mem_singleton]
      exact fun e => h ⟨2, e.symm⟩
    rw [HloOp.result_of_not_mem _ _ hb]
    unfold W12 Pipeline.withArrays
    rw [dif_neg h]

/-- The buffers after the whole program: the nine host stretches and the four products, in the program's order, folded
    over the launch memory. -/
theorem W13_eq (c : Dev nD) :
    W13 m ρ c = StableHlo.after hostOps4 (StableHlo.after [dot3] (StableHlo.after hostOps3 (StableHlo.after [dot2]
      (StableHlo.after hostOps2_1 (StableHlo.after hostOps2 (StableHlo.after [dot1] (StableHlo.after hostOps1_1 (StableHlo.after hostOps1
        (StableHlo.after [dot0] (StableHlo.after hostOps0_2 (StableHlo.after hostOps0_1 (StableHlo.after hostOps0 (W0 m ρ c))))))))))))) :=
  congrArg (StableHlo.after hostOps4) ((W12_eq m ρ c).trans (congrArg (StableHlo.after [dot3]) (congrArg (StableHlo.after hostOps3)
    ((W10_eq m ρ c).trans (congrArg (StableHlo.after [dot2]) (congrArg (StableHlo.after hostOps2_1) (congrArg (StableHlo.after hostOps2)
      ((W7_eq m ρ c).trans (congrArg (StableHlo.after [dot1]) (congrArg (StableHlo.after hostOps1_1) (congrArg (StableHlo.after hostOps1)
        (W4_eq m ρ c))))))))))))

end Cert.KernelIdeal.Bridge

end
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.Same82.lean ====
/-
  The two programs end with the same first result.

  Each program's result buffer after its run is a fold of host operations over its launch memory — the kernel's with
  every launch read as one host product. Read down to the arguments, the two folds are the same composed term: the
  same operations in the same order on the same argument values.
-/
import proofs.«148648_j43482248905435_1_alg».proof.Proof.KFold
import proofs.«148648_j43482248905435_1_alg».proof.Proof.RefRun
import proofs.«148648_j43482248905435_1_alg».proof.Proof.LibHostReads

noncomputable section

namespace Cert.KernelIdeal.Bridge

open Cert.KernelIdeal Cert.KernelIdeal.Gen Idealize.ShloMosaic Idealize.ShloMosaic.TcCoe Idealize.SL.Sem Idealize.ShloMosaic.StableHlo
open Cert.LibHostReads

set_option maxRecDepth 16384 in
set_option maxHeartbeats 100000000 in
/-- From launch memories that agree on the ten arguments, the kernel's first result buffer after its thirteen segments
    and the reference's after its 126 operations hold the same array: both folds, read down to the arguments, are one
    composed term — the edge ends with the self loops, the degrees and edge weights, then per layer the dense product,
    the gather along the sources, the scaling, the scatter-add onto the targets, the bias and the clamp at zero. -/
theorem same_v82 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (e0 : StableHlo.launchContents m' c (Proc.devRef .tc Cert.ReferenceIdeal.main_arg0) = W0 m ρ c (Proc.devRef .tc main_arg0))
    (e1 : StableHlo.launchContents m' c (Proc.devRef .tc Cert.ReferenceIdeal.main_arg1) = W0 m ρ c (Proc.devRef .tc main_arg1))
    (e2 : StableHlo.launchContents m' c (Proc.devRef .tc Cert.ReferenceIdeal.main_arg2) = W0 m ρ c (Proc.devRef .tc main_arg2))
    (e3 : StableHlo.launchContents m' c (Proc.devRef .tc Cert.ReferenceIdeal.main_arg3) = W0 m ρ c (Proc.devRef .tc main_arg3))
    (e4 : StableHlo.launchContents m' c (Proc.devRef .tc Cert.ReferenceIdeal.main_arg4) = W0 m ρ c (Proc.devRef .tc main_arg4))
    (e5 : StableHlo.launchContents m' c (Proc.devRef .tc Cert.ReferenceIdeal.main_arg5) = W0 m ρ c (Proc.devRef .tc main_arg5))
    (e6 : StableHlo.launchContents m' c (Proc.devRef .tc Cert.ReferenceIdeal.main_arg6) = W0 m ρ c (Proc.devRef .tc main_arg6))
    (e7 : StableHlo.launchContents m' c (Proc.devRef .tc Cert.ReferenceIdeal.main_arg7) = W0 m ρ c (Proc.devRef .tc main_arg7))
    (e8 : StableHlo.launchContents m' c (Proc.devRef .tc Cert.ReferenceIdeal.main_arg8) = W0 m ρ c (Proc.devRef .tc main_arg8))
    (e9 : StableHlo.launchContents m' c (Proc.devRef .tc Cert.ReferenceIdeal.main_arg9) = W0 m ρ c (Proc.devRef .tc main_arg9)) :
    W13 m ρ c (Proc.devRef .tc main_v82)
      = StableHlo.after (Cert.ReferenceIdeal.ValueP.ops (F := Ideal)) (StableHlo.launchContents m' c) (Proc.devRef .tc Cert.ReferenceIdeal.main_v82) := by
  rw [W13_eq]
  simp only [hostOps0, hostOps0_1, hostOps0_2, hostOps1, hostOps1_1, hostOps2, hostOps2_1, hostOps3, hostOps4, dot0, dot1, dot2, dot3, Cert.ReferenceIdeal.ValueP.ops]
  after_results_simp
  host_reads
  rw [e0, e1, e2, e3, e4, e5, e6, e7]
  rfl

end Cert.KernelIdeal.Bridge

end
-- ==== Proof.Same99.lean ====
/-
  The two programs end with the same second result.

  Each program's result buffer after its run is a fold of host operations over its launch memory — the kernel's with
  every launch read as one host product. Read down to the arguments, the two folds are the same composed term: the
  same operations in the same order on the same argument values.
-/
import proofs.«148648_j43482248905435_1_alg».proof.Proof.KFold
import proofs.«148648_j43482248905435_1_alg».proof.Proof.RefRun
import proofs.«148648_j43482248905435_1_alg».proof.Proof.LibHostReads

noncomputable section

namespace Cert.KernelIdeal.Bridge

open Cert.KernelIdeal Cert.KernelIdeal.Gen Idealize.ShloMosaic Idealize.ShloMosaic.TcCoe Idealize.SL.Sem Idealize.ShloMosaic.StableHlo
open Cert.LibHostReads

set_option maxRecDepth 16384 in
set_option maxHeartbeats 100000000 in
/-- From launch memories that agree on the ten arguments, the kernel's second result buffer after its thirteen segments
    and the reference's after its 126 operations hold the same array: both folds, read down to the arguments, are one
    composed term — the edge ends with the self loops, the degrees and edge weights, then per layer the dense product,
    the gather along the sources, the scaling, the scatter-add onto the targets, the bias and the clamp at zero. -/
theorem same_v99 (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (e0 : StableHlo.launchContents m' c (Proc.devRef .tc Cert.ReferenceIdeal.main_arg0) = W0 m ρ c (Proc.devRef .tc main_arg0))
    (e1 : StableHlo.launchContents m' c (Proc.devRef .tc Cert.ReferenceIdeal.main_arg1) = W0 m ρ c (Proc.devRef .tc main_arg1))
    (e2 : StableHlo.launchContents m' c (Proc.devRef .tc Cert.ReferenceIdeal.main_arg2) = W0 m ρ c (Proc.devRef .tc main_arg2))
    (e3 : StableHlo.launchContents m' c (Proc.devRef .tc Cert.ReferenceIdeal.main_arg3) = W0 m ρ c (Proc.devRef .tc main_arg3))
    (e4 : StableHlo.launchContents m' c (Proc.devRef .tc Cert.ReferenceIdeal.main_arg4) = W0 m ρ c (Proc.devRef .tc main_arg4))
    (e5 : StableHlo.launchContents m' c (Proc.devRef .tc Cert.ReferenceIdeal.main_arg5) = W0 m ρ c (Proc.devRef .tc main_arg5))
    (e6 : StableHlo.launchContents m' c (Proc.devRef .tc Cert.ReferenceIdeal.main_arg6) = W0 m ρ c (Proc.devRef .tc main_arg6))
    (e7 : StableHlo.launchContents m' c (Proc.devRef .tc Cert.ReferenceIdeal.main_arg7) = W0 m ρ c (Proc.devRef .tc main_arg7))
    (e8 : StableHlo.launchContents m' c (Proc.devRef .tc Cert.ReferenceIdeal.main_arg8) = W0 m ρ c (Proc.devRef .tc main_arg8))
    (e9 : StableHlo.launchContents m' c (Proc.devRef .tc Cert.ReferenceIdeal.main_arg9) = W0 m ρ c (Proc.devRef .tc main_arg9)) :
    W13 m ρ c (Proc.devRef .tc main_v99)
      = StableHlo.after (Cert.ReferenceIdeal.ValueP.ops (F := Ideal)) (StableHlo.launchContents m' c) (Proc.devRef .tc Cert.ReferenceIdeal.main_v99) := by
  rw [W13_eq]
  simp only [hostOps0, hostOps0_1, hostOps0_2, hostOps1, hostOps1_1, hostOps2, hostOps2_1, hostOps3, hostOps4, dot0, dot1, dot2, dot3, Cert.ReferenceIdeal.ValueP.ops]
  after_results_simp
  host_reads
  rw [e0, e1, e2, e3, e4, e5, e8, e9]
  rfl

end Cert.KernelIdeal.Bridge

end
-- ==== Proof.lean ====
/-
  A four-layer graph convolution on 20000 nodes and 320000 edges: the kernel against its reference, over the
  extended reals.

  Both programs build, from the edge list, the edge ends with the self loops appended, the degrees and the symmetric
  edge weights; a layer multiplies the node features by a weight matrix, sends every source row scaled by its edge
  weight to its target, adds what arrives at each node, and adds a bias; two layers with a clamp at zero are followed
  by two output layers on the same hidden features. The host text of the two programs is the same, operation for
  operation. They differ in the four dense products x · W alone: the kernel computes each on the core, ten blocks of
  2000 rows at a time, narrowing both operands to bf16 on the way in; the reference contracts once on the host. At the
  ideal values narrowing changes nothing and both are Σ_k x(r, k) · W(k, c) (Region0 … Region3), so each launch is, to
  the buffers, one host product (KFold); both programs then run the same line of host operations over their launch
  memories (KRun, RefRun), and read at a result buffer the two folds are one composed term of the arguments (Same82,
  Same99). No law of arithmetic is needed beyond the product, so the finiteness of the inputs is never used. The ideal
  pass rewrote nothing: `preserves` is `True`.
-/
import proofs.«148648_j43482248905435_1_alg».proof.Defs
import proofs.«148648_j43482248905435_1_alg».proof.Proof.Gen.Kernel
import proofs.«148648_j43482248905435_1_alg».proof.Proof.Gen.Kernel.Skeleton
import proofs.«148648_j43482248905435_1_alg».proof.Proof.Gen.Kernel.Launch
import proofs.«148648_j43482248905435_1_alg».proof.Proof.Gen.Kernel.Points
import proofs.«148648_j43482248905435_1_alg».proof.Proof.Gen.Kernel.Frame
import proofs.«148648_j43482248905435_1_alg».proof.Proof.Gen.KernelIdeal
import proofs.«148648_j43482248905435_1_alg».proof.Proof.Gen.KernelIdeal.Skeleton
import proofs.«148648_j43482248905435_1_alg».proof.Proof.Gen.KernelIdeal.Launch
import proofs.«148648_j43482248905435_1_alg».proof.Proof.Gen.KernelIdeal.Points
import proofs.«148648_j43482248905435_1_alg».proof.Proof.Gen.KernelIdeal.Frame
import proofs.«148648_j43482248905435_1_alg».proof.Proof.Gen.ReferenceIdeal
import proofs.«148648_j43482248905435_1_alg».proof.Proof.Gen.Pre_finite_inputs
import proofs.«148648_j43482248905435_1_alg».proof.Proof.KRun
import proofs.«148648_j43482248905435_1_alg».proof.Proof.RefRun
import proofs.«148648_j43482248905435_1_alg».proof.Proof.RArgs
import proofs.«148648_j43482248905435_1_alg».proof.Proof.Same82
import proofs.«148648_j43482248905435_1_alg».proof.Proof.Same99
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is one line of host operations, none of which writes an argument. -/
theorem frame_ri : Cert.frame_ReferenceIdeal := fun m ρ _ =>
  (θ_run Cert.ReferenceIdeal.defs _ _).mono (fun _ h c =>
    ⟨(h c _).trans (Cert.ReferenceIdeal.Bridge.ops_arg0 _), (h c _).trans (Cert.ReferenceIdeal.Bridge.ops_arg1 _), (h c _).trans (Cert.ReferenceIdeal.Bridge.ops_arg2 _),
     (h c _).trans (Cert.ReferenceIdeal.Bridge.ops_arg3 _), (h c _).trans (Cert.ReferenceIdeal.Bridge.ops_arg4 _), (h c _).trans (Cert.ReferenceIdeal.Bridge.ops_arg5 _),
     (h c _).trans (Cert.ReferenceIdeal.Bridge.ops_arg6 _), (h c _).trans (Cert.ReferenceIdeal.Bridge.ops_arg7 _), (h c _).trans (Cert.ReferenceIdeal.Bridge.ops_arg8 _),
     (h c _).trans (Cert.ReferenceIdeal.Bridge.ops_arg9 _)⟩)
    (Cert.ReferenceIdeal.ValueP.run (F := Ideal) m ρ)

/-- From memories agreeing on the arguments both idealized programs end with equal results: the kernel's two result
    buffers end at its fold (its run), the reference's at the fold of its line (its run), and the two folds read at a
    result buffer are the same array. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v82),
    fun c => Cert.KernelIdeal.Gen.W13 (F := Ideal) m ρ c (Proc.devRef .tc Cert.KernelIdeal.main_v99),
    Cert.KernelIdeal.Bridge.run_fold (F := Ideal) m ρ, ?_⟩
  refine (θ_run Cert.ReferenceIdeal.defs _ _).mono (fun _ h c => ?_) (Cert.ReferenceIdeal.ValueP.run (F := Ideal) m' ρ')
  obtain ⟨e0, e1, e2, e3, e4, e5, e6, e7, e8, e9⟩ := hagree c
  exact ⟨(h c _).trans (Cert.KernelIdeal.Bridge.same_v82 m ρ m' c e0 e1 e2 e3 e4 e5 e6 e7 e8 e9).symm,
    (h c _).trans (Cert.KernelIdeal.Bridge.same_v99 m ρ m' c e0 e1 e2 e3 e4 e5 e6 e7 e8 e9).symm,
    (h c _).trans (Cert.ReferenceIdeal.Bridge.ops_arg0 _), (h c _).trans (Cert.ReferenceIdeal.Bridge.ops_arg1 _), (h c _).trans (Cert.ReferenceIdeal.Bridge.ops_arg2 _),
    (h c _).trans (Cert.ReferenceIdeal.Bridge.ops_arg3 _), (h c _).trans (Cert.ReferenceIdeal.Bridge.ops_arg4 _), (h c _).trans (Cert.ReferenceIdeal.Bridge.ops_arg5 _),
    (h c _).trans (Cert.ReferenceIdeal.Bridge.ops_arg6 _), (h c _).trans (Cert.ReferenceIdeal.Bridge.ops_arg7 _), (h c _).trans (Cert.ReferenceIdeal.Bridge.ops_arg8 _),
    (h c _).trans (Cert.ReferenceIdeal.Bridge.ops_arg9 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
